-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  main_v3
-- ==== Kernel.lean ====
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S1024x4096 : Shape := ⟨2, ![1024, 4096]⟩
abbrev S512x4096 : Shape := ⟨2, ![512, 4096]⟩
abbrev S1024x1 : Shape := ⟨2, ![1024, 1]⟩
abbrev S1x512 : Shape := ⟨2, ![1, 512]⟩
abbrev S1024x512 : Shape := ⟨2, ![1024, 512]⟩

abbrev nBuf : Space → Nat
  | .hbm => 9
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S1x4096, .f32⟩
  | .hbm, ⟨8, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x1, .f32⟩
  | .local _ .vmem, ⟨5, _⟩ => ⟨S1024x1, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  reducesTo_S4096x4096_S4096_d1 : S4096x4096.ReducesTo [1] S4096
  h_S_ : 0 < S_.numel
  shapeCasts_S4096_S4096x1 : S4096.ShapeCasts S4096x1
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .bf16 = 32 ∨ (Rect.block (s := S4096x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S4096x4096.size a
  hwx0_4 : ∀ i : grid0.Coords, EltTy.bits .f32 = 32 ∨ (Rect.block (s := S4096x4096) S1024x512.size (cc0_transform_4 i) (hinb0_4 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S_, .f32⟩
  | .hbm, ⟨3, _⟩ => ⟨S4096, .f32⟩
  | .hbm, ⟨4, _⟩ => ⟨S4096x4096, .f32⟩
  | .hbm, ⟨5, _⟩ => ⟨S4096x4096, .f32⟩
  | .hbm, ⟨6, _⟩ => ⟨S4096x1, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  transposes_S4096x4096_S4096x4096_1_0 : S4096x4096.Transposes [1, 0] S4096x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.LibSharedFrame.lean ====
/-
  A pipeline's frame run when several input windows read one array.

  One region on a static grid, a kernel with no semaphore of its own, host operations before the region only. The
  buffers behind the windows' arrays are handed over once each, whole; how an array read through several windows is
  dealt among them is the one thing the caller states (`hsplit`): each such window holds the array at a positive part of
  the whole share, the parts composing to the whole, every window holding the same contents. An output window on a
  shared array is not covered: writing back a block needs the whole share.

  The region's invariant is the one of kernels that keep nothing of their own between points: the scoped buffers that
  are no staging buffer at some contents, and the generator register at some state. It is entered from that
  (`hin`) and gives it back (`hout`). The conclusion says every window's array ends at the contents computed from the
  proof data after all write-backs, and every unscoped buffer that is no window's array ends as the region found it.
-/
import Idealize.ShloMosaic.Lib.Pipeline.Frame

noncomputable section

namespace Cert.SharedLaunch

open Idealize.ShloMosaic Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic.TcCoe Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The frame run of a region whose input windows may share arrays. The layout facts are taken one by one: the staging
    cells pairwise distinct, the windows' buffers laid out but for the arrays' distinctness, no block empty, arrays and
    staging memrefs whole buffers. -/
theorem θ_run_frame_shared
    (hcell : Function.Injective (cellOf (nD := nD) (τ := τ) cfgs))
    (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, ΦA (cfg).spec c ⊢ (dats p c).Φ 0)
    (hout : ∀ c, (dats p c).Φ (Fin.last (cfg).N) ⊢ ΦA (cfg).spec c) :
    θ_run 𝔻 (onTc main) (s₀ m g) (FramePost cfgs dats p V) := by
  classical
  exact Pipeline.θ_run_region_pf (fun q => (cfgs q).toPCfg (Val := Val)) (fun q => (cfgs q).toPCfg_adm) dats () hcell p hw
    (OwnSemFacts.none (cfg).spec) (PreFacts.none _) emb₁ defs₀ 𝒱₀ m g main hbody hne harr hstage howed
    (G := fun _ => iprop(emp)) (u₀ := initOf (cells cfgs hcell) (launchToks cfgs hcell))
    (hu₀ := by
      iintro Hu; imodintro
      isplitl [Hu]
      · iapply (show (ownU _ : sProp 𝕄) ⊢ BI.own (emb₁ (initOf (cells cfgs hcell) (launchToks cfgs hcell))) from .rfl); iexact Hu
      iapply (show (BI.emp : sProp 𝕄) ⊢ bigSep Finset.univ (fun _ : Dev nD => (BI.emp : sProp 𝕄)) from by rw [BI.bigSep_emp_const])
      iempintro)
    (V := V) (hmain := hmain) (hsplit := hsplit) (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfg).spec c (V c))
    (hX := fun c => by
      rw [unscopedRestP_none]
      iintro ⟨HU, -, -, -, Hp, -⟩; imodintro
      isplitl [Hp]; · iexists _; iexact Hp
      iexact HU)
    (hin := fun c => (show _ ⊢ ΦA (cfg).spec c by
        unfold ΦA; iintro ⟨Hp, -, Hr⟩
        isplitl [Hr] <;> iassumption).trans (hin c))
    (hout := fun c => (hout c).trans (by
        rw [ownSems0_none]; unfold ΦA
        iintro ⟨Hr, Hp⟩
        isplitl [Hp]; · iexact Hp
        isplitr; · iempintro
        iexact Hr))
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2.2⟩)

end Cert.SharedLaunch

end
-- ==== Proof.KernelFrame.lean ====
/-
  The frame of the pairwise squared-distance program.

  @main first rounds the embeddings to bf16 and back, squares them and sums each row (the squared norms), and lays
  the norms out as a column and as a row; then one region over a 4 × 8 grid computes the distance matrix tile by
  tile. Point (i, j) reads rows [1024 i, 1024 i + 1024) and rows [512 j, 512 j + 512) of the SAME rounded array
  through two windows, the matching pieces of the norm column and norm row, and writes the 1024 × 512 tile
  max (n_r + n_s - 2 <e_r, e_s>, 0) of the result.

  Two windows on one array: the array is only read, so each window holds it at half of the whole share, and the
  region is launched through the frame run for shared input arrays. The row-block windows move only with i, so
  between two fetches their staging buffers still hold the block last fetched.
-/
import proofs.«129429_j48249662603860_2_alg».proof.Proof.Gen.Kernel.Launch
import proofs.«129429_j48249662603860_2_alg».proof.Proof.Gen.Kernel.Skeleton
import proofs.«129429_j48249662603860_2_alg».proof.Proof.Gen.Kernel.Points
import proofs.«129429_j48249662603860_2_alg».proof.Proof.LibSharedFrame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the seven host operations. -/
abbrev V (c : Dev nD) (b : Ref sig .tc) : Buf (Elt F) ((c : Thread nD τ).loc b) :=
  StableHlo.after hostOps0 (fun b => m (c, b)) b

/-- None of the host operations allocates a buffer. -/
theorem hostOps0_fresh : (hostOps0 : List (HloOp τ sig (Elt F))).Forall fun op => op.fresh = ∅ :=
  ⟨rfl, rfl, rfl, rfl, rfl, rfl, rfl⟩

/-- @main is the host operations, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the argument array. -/
theorem V_main_arg0 (c : Dev nD) : V m c main_arg0 = m ((c : Thread nD τ).loc main_arg0) := by
  dsimp only [V, hostOps0]
  after_results

/-! ## The windows' blocks -/

/-- Window `w`'s block at point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

section Found

variable {c : Dev nD} (dat : Dat τ (Elt F) Unit ℕ (UR sig nD τ) ℕ cfg0 c)

/-- The row-block window of the rounded embeddings holds its block at every point: it is fetched when the row-block
    changes, and in between the body leaves it as it found it. -/
theorem found_0 (hA : dat.A 0 = V m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl)
      (fun t => by rw [hafter]; unfold Dat.blockOf blockAt; rw [hA]; try rfl) t d).trans
    (by unfold Dat.fetched Dat.blockOf blockAt; rw [hA]; try rfl)

/-- The column-block window of the same array, fetched at every point. -/
theorem found_1 (hA : dat.A 1 = V m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl)
      (fun t => by rw [hafter]; unfold Dat.blockOf blockAt; rw [hA]; try rfl) t d).trans
    (by unfold Dat.fetched Dat.blockOf blockAt; rw [hA]; try rfl)

/-- The piece of the norm column, moving with the row-block. -/
theorem found_2 (hA : dat.A 2 = V m c (Pipeline.arrRef spec0 2)) (hafter : ∀ t, dat.after 2 t = blockAt m c 2 t)
    (t : Fin cfg0.N) (d) : dat.before 2 t d = blockAt m c 2 t :=
  (dat.before_in_eq_fetched 2 rfl (fun _ => rfl) (fun _ _ _ => rfl)
      (fun t => by rw [hafter]; unfold Dat.blockOf blockAt; rw [hA]; try rfl) t d).trans
    (by unfold Dat.fetched Dat.blockOf blockAt; rw [hA]; try rfl)

/-- The piece of the norm row, fetched at every point. -/
theorem found_3 (hA : dat.A 3 = V m c (Pipeline.arrRef spec0 3)) (hafter : ∀ t, dat.after 3 t = blockAt m c 3 t)
    (t : Fin cfg0.N) (d) : dat.before 3 t d = blockAt m c 3 t :=
  (dat.before_in_eq_fetched 3 rfl (fun _ => rfl) (fun _ _ _ => rfl)
      (fun t => by rw [hafter]; unfold Dat.blockOf blockAt; rw [hA]; try rfl) t d).trans
    (by unfold Dat.fetched Dat.blockOf blockAt; rw [hA]; try rfl)

end Found

/-! ## The distance tile -/

/-- The body reads and writes each staging buffer whole. -/
abbrev rRows : Rect S1024x4096 := Rect.unit (s := S1024x4096) ![0, 0] S1024x4096.size inb_S1024x4096_S1024x4096_0_0
abbrev rCols : Rect S512x4096 := Rect.unit (s := S512x4096) ![0, 0] S512x4096.size inb_S512x4096_S512x4096_0_0
abbrev rNormCol : Rect S1024x1 := Rect.unit (s := S1024x1) ![0, 0] S1024x1.size inb_S1024x1_S1024x1_0_0
abbrev rNormRow : Rect S1x512 := Rect.unit (s := S1x512) ![0, 0] S1x512.size inb_S1x512_S1x512_0_0
abbrev rTile : Rect S1024x512 := Rect.unit (s := S1024x512) ![0, 0] S1024x512.size inb_S1024x512_S1024x512_0_0

theorem zero_offsets : (![0, 0] : Fin 2 → Nat) = fun _ => 0 :=
  funext fun a => by match a with | ⟨0, _⟩ => rfl | ⟨1, _⟩ => rfl

/-- What the body's one store leaves in the result's staging buffer, from the four blocks it loaded. -/
def distTile (e_r : Vec F S1024x4096 .bf16) (e_s : Vec F S512x4096 .bf16) (n_r : Vec F S1024x1 .f32) (n_s : Vec F S1x512 .f32) :
    Vec F S1024x512 .f32 :=
  View.canon [⟨rTile, k0_pay1 (View.ld e_r rRows) (View.ld e_s rCols) (View.ld n_r rNormCol) (View.ld n_s rNormRow)⟩]

/-- The store covers the buffer. -/
theorem tile_covered (p : Vec F S1024x512 .f32) (y : S1024x512.Idx) :
    ∃ pc ∈ ([⟨rTile, p⟩] : List (View.Piece (Elt F) S1024x512 .f32)), y ∈ pc.1.set :=
  ⟨_, List.mem_singleton_self _, View.mem_set_unit_zero zero_offsets inb_S1024x512_S1024x512_0_0 y⟩

/-- Loads and store being whole-buffer, the tile is the body's arithmetic on the four blocks. -/
theorem distTile_eq (e_r : Vec F S1024x4096 .bf16) (e_s : Vec F S512x4096 .bf16) (n_r : Vec F S1024x1 .f32) (n_s : Vec F S1x512 .f32) :
    distTile e_r e_s n_r n_s = k0_pay1 e_r e_s n_r n_s := by
  unfold distTile
  rw [View.canon_unit_zero zero_offsets]
  simp only [View.ld_unit_zero (S := S1024x4096) zero_offsets, View.ld_unit_zero (S := S512x4096) zero_offsets,
    View.ld_unit_zero (S := S1024x1) zero_offsets, View.ld_unit_zero (S := S1x512) zero_offsets]

/-! ## The body's triple -/

set_option maxHeartbeats 1000000 in
/-- On whole staging buffers, the four inputs at contents it only reads and the result's at anything, the body runs to
    its return holding the inputs as they were and the result's buffer at the distance tile of the inputs. -/
theorem sound_kernel (c : Dev nD) (E : Set ℕ) (i : grid0.Coords)
    (a_r : Memref sig .tc .vmem S1024x4096 .bf16) (h_r : a_r.IsWhole) (a_s : Memref sig .tc .vmem S512x4096 .bf16) (h_s : a_s.IsWhole)
    (a_nr : Memref sig .tc .vmem S1024x1 .f32) (h_nr : a_nr.IsWhole) (a_ns : Memref sig .tc .vmem S1x512 .f32) (h_ns : a_ns.IsWhole)
    (a_o : Memref sig .tc .vmem S1024x512 .f32) (h_o : a_o.IsWhole)
    (e_r : Vec F S1024x4096 .bf16) (e_s : Vec F S512x4096 .bf16) (n_r : Vec F S1024x1 .f32) (n_s : Vec F S1x512 .f32) (K : PUnit → sProp 𝕄) :
    iprop(owns (c : Thread nD τ) a_r fullShare e_r ∗ owns (c : Thread nD τ) a_s fullShare e_s ∗ owns (c : Thread nD τ) a_nr fullShare n_r
        ∗ owns (c : Thread nD τ) a_ns fullShare n_s ∗ (∃ d, owns (c : Thread nD τ) a_o fullShare d)
        ∗ (iprop(owns (c : Thread nD τ) a_r fullShare e_r ∗ owns (c : Thread nD τ) a_s fullShare e_s ∗ owns (c : Thread nD τ) a_nr fullShare n_r
            ∗ owns (c : Thread nD τ) a_ns fullShare n_s ∗ owns (c : Thread nD τ) a_o fullShare (distTile e_r e_s n_r n_s)) -∗ K ⟨⟩))
      ⊢ wp frame (wpE (defs₀ (F := F)) Variants.none c none) E (cc0__rdm_kernel i a_r h_r a_s h_s a_nr h_nr a_ns h_ns a_o h_o) K := by
  simp only [cc0__rdm_kernel_eq_skeleton]; unfold cc0__rdm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tile_covered _)

/-! ## The proof data -/

/-- On core `c`: the arrays as the region finds them; after the body at point `t` each input's buffer still at its block
    and the result's at the distance tile of the four blocks; nothing kept between points beyond that; nothing owed.
    The rounded embeddings are read through two windows: the row-block window holds the array at the left half of the
    whole share, the column-block window at the right half. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => distTile (blockAt m c 0 t) (blockAt m c 1 t) (blockAt m c 2 t) (blockAt m c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) :
    (dats m 0 c).after 4 t = distTile (blockAt m c 0 t) (blockAt m c 1 t) (blockAt m c 2 t) (blockAt m c 3 t) := by
  dsimp only [dats]

theorem before_0 (c : Dev nD) (t : Fin cfg0.N) (d) : (dats m 0 c).before 0 t d = blockAt m c 0 t :=
  found_0 m (dats m 0 c) (A_eq m c 0) (after_0 m c) t d
theorem before_1 (c : Dev nD) (t : Fin cfg0.N) (d) : (dats m 0 c).before 1 t d = blockAt m c 1 t :=
  found_1 m (dats m 0 c) (A_eq m c 1) (after_1 m c) t d
theorem before_2 (c : Dev nD) (t : Fin cfg0.N) (d) : (dats m 0 c).before 2 t d = blockAt m c 2 t :=
  found_2 m (dats m 0 c) (A_eq m c 2) (after_2 m c) t d
theorem before_3 (c : Dev nD) (t : Fin cfg0.N) (d) : (dats m 0 c).before 3 t d = blockAt m c 3 t :=
  found_3 m (dats m 0 c) (A_eq m c 3) (after_3 m c) t d

/-! ## The shared array, dealt between its two windows -/

/-- The buffers behind the five windows' arrays are four. -/
theorem arr_image : Finset.univ.image (Pipeline.arrRef spec0) = ({main_v0, main_v4, main_v5, main_v6} : Finset (Ref sig .tc)) := by
  decide

/-- The four buffers conjoined one by one. -/
theorem bigSep_arrs {M : Type} [URA M] (Φ : Ref sig .tc → sProp M) :
    bigSep ({main_v0, main_v4, main_v5, main_v6} : Finset (Ref sig .tc)) Φ = iprop(Φ main_v0 ∗ Φ main_v4 ∗ Φ main_v5 ∗ Φ main_v6) :=
  BI.bigSep_eq_bigSepL_of_eq [main_v0, main_v4, main_v5, main_v6] (by decide) (by decide) Φ

/-- Handed the four buffers whole, the region holds the rounded embeddings once per window, at the two halves of the
    whole share and the same contents, and every other array whole. -/
theorem arrays_dealt (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [arr_image, bigSep_W0, bigSep_arrs]
  simp only [(arr_whole0 0).set_eq_univ, (arr_whole0 1).set_eq_univ, (arr_whole0 2).set_eq_univ,
    (arr_whole0 3).set_eq_univ, (arr_whole0 4).set_eq_univ]
  iintro ⟨H0, H4, H5, H6⟩
  ihave ⟨Hl, Hr⟩ := (pointsTo_share (PosShare.mem_left_op_right fullShare)).1 $$ H0
  isplitl [Hl]; · iexact Hl
  isplitl [Hr]; · iexact Hr
  isplitl [H4]; · iexact H4
  isplitl [H5]; · iexact H5
  iexact H6

/-! ## The body obligation, at a generic point -/

/-- What the body is called with at point `t`: the invariant, what the core owes, and each window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- At any point the inputs' buffers hold their blocks, so the body's triple applies; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (blockAt m c 0 t) (blockAt m c 1 t) (blockAt m c 2 t) (blockAt m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, each window's array ending at
    what the write-backs leave of it and every other unscoped buffer as the region found it. -/
theorem run_main : θ_run defs (onTc (τ := τ) (main (F := F))) (s₀ m ρ) (Pipeline.FramePost cfgs (dats m) 0 (V m)) :=
  Cert.SharedLaunch.θ_run_frame_shared cfgs (dats m) (0 : Fin 1) defs₀ Variants.none
    cellOf_inj winFacts₀0 block_pos0 arr_whole0 stage_whole0 m ρ main
    (hbody := fun c => (body_obligation m c).loose) (howed := fun _ _ => rfl) (V := V m) (hmain := hmain m Variants.none)
    (hsplit := arrays_dealt m) (hin := fun _ => .rfl) (hout := fun _ => .rfl)

/-- The argument array is no window's array, so it ends as the region found it, which is as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
    ((h c).2 main_arg0 (Pipeline.mem_restRefs_of main_arg0 rfl (by decide))).trans (V_main_arg0 m c)) (run_main m ρ)

end Cert.Kernel.Hand

end
-- ==== Proof.KernelIdealFrame.lean ====
/-
  The frame of the pairwise squared-distance program.

  @main first rounds the embeddings to bf16 and back, squares them and sums each row (the squared norms), and lays
  the norms out as a column and as a row; then one region over a 4 × 8 grid computes the distance matrix tile by
  tile. Point (i, j) reads rows [1024 i, 1024 i + 1024) and rows [512 j, 512 j + 512) of the SAME rounded array
  through two windows, the matching pieces of the norm column and norm row, and writes the 1024 × 512 tile
  max (n_r + n_s - 2 <e_r, e_s>, 0) of the result.

  Two windows on one array: the array is only read, so each window holds it at half of the whole share, and the
  region is launched through the frame run for shared input arrays. The row-block windows move only with i, so
  between two fetches their staging buffers still hold the block last fetched.
-/
import proofs.«129429_j48249662603860_2_alg».proof.Proof.Gen.KernelIdeal.Launch
import proofs.«129429_j48249662603860_2_alg».proof.Proof.Gen.KernelIdeal.Skeleton
import proofs.«129429_j48249662603860_2_alg».proof.Proof.Gen.KernelIdeal.Points
import proofs.«129429_j48249662603860_2_alg».proof.Proof.LibSharedFrame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the seven host operations. -/
abbrev V (c : Dev nD) (b : Ref sig .tc) : Buf (Elt F) ((c : Thread nD τ).loc b) :=
  StableHlo.after hostOps0 (fun b => m (c, b)) b

/-- None of the host operations allocates a buffer. -/
theorem hostOps0_fresh : (hostOps0 : List (HloOp τ sig (Elt F))).Forall fun op => op.fresh = ∅ :=
  ⟨rfl, rfl, rfl, rfl, rfl, rfl, rfl⟩

/-- @main is the host operations, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the argument array. -/
theorem V_main_arg0 (c : Dev nD) : V m c main_arg0 = m ((c : Thread nD τ).loc main_arg0) := by
  dsimp only [V, hostOps0]
  after_results

/-! ## The windows' blocks -/

/-- Window `w`'s block at point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

section Found

variable {c : Dev nD} (dat : Dat τ (Elt F) Unit ℕ (UR sig nD τ) ℕ cfg0 c)

/-- The row-block window of the rounded embeddings holds its block at every point: it is fetched when the row-block
    changes, and in between the body leaves it as it found it. -/
theorem found_0 (hA : dat.A 0 = V m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl)
      (fun t => by rw [hafter]; unfold Dat.blockOf blockAt; rw [hA]; try rfl) t d).trans
    (by unfold Dat.fetched Dat.blockOf blockAt; rw [hA]; try rfl)

/-- The column-block window of the same array, fetched at every point. -/
theorem found_1 (hA : dat.A 1 = V m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl)
      (fun t => by rw [hafter]; unfold Dat.blockOf blockAt; rw [hA]; try rfl) t d).trans
    (by unfold Dat.fetched Dat.blockOf blockAt; rw [hA]; try rfl)

/-- The piece of the norm column, moving with the row-block. -/
theorem found_2 (hA : dat.A 2 = V m c (Pipeline.arrRef spec0 2)) (hafter : ∀ t, dat.after 2 t = blockAt m c 2 t)
    (t : Fin cfg0.N) (d) : dat.before 2 t d = blockAt m c 2 t :=
  (dat.before_in_eq_fetched 2 rfl (fun _ => rfl) (fun _ _ _ => rfl)
      (fun t => by rw [hafter]; unfold Dat.blockOf blockAt; rw [hA]; try rfl) t d).trans
    (by unfold Dat.fetched Dat.blockOf blockAt; rw [hA]; try rfl)

/-- The piece of the norm row, fetched at every point. -/
theorem found_3 (hA : dat.A 3 = V m c (Pipeline.arrRef spec0 3)) (hafter : ∀ t, dat.after 3 t = blockAt m c 3 t)
    (t : Fin cfg0.N) (d) : dat.before 3 t d = blockAt m c 3 t :=
  (dat.before_in_eq_fetched 3 rfl (fun _ => rfl) (fun _ _ _ => rfl)
      (fun t => by rw [hafter]; unfold Dat.blockOf blockAt; rw [hA]; try rfl) t d).trans
    (by unfold Dat.fetched Dat.blockOf blockAt; rw [hA]; try rfl)

end Found

/-! ## The distance tile -/

/-- The body reads and writes each staging buffer whole. -/
abbrev rRows : Rect S1024x4096 := Rect.unit (s := S1024x4096) ![0, 0] S1024x4096.size inb_S1024x4096_S1024x4096_0_0
abbrev rCols : Rect S512x4096 := Rect.unit (s := S512x4096) ![0, 0] S512x4096.size inb_S512x4096_S512x4096_0_0
abbrev rNormCol : Rect S1024x1 := Rect.unit (s := S1024x1) ![0, 0] S1024x1.size inb_S1024x1_S1024x1_0_0
abbrev rNormRow : Rect S1x512 := Rect.unit (s := S1x512) ![0, 0] S1x512.size inb_S1x512_S1x512_0_0
abbrev rTile : Rect S1024x512 := Rect.unit (s := S1024x512) ![0, 0] S1024x512.size inb_S1024x512_S1024x512_0_0

theorem zero_offsets : (![0, 0] : Fin 2 → Nat) = fun _ => 0 :=
  funext fun a => by match a with | ⟨0, _⟩ => rfl | ⟨1, _⟩ => rfl

/-- What the body's one store leaves in the result's staging buffer, from the four blocks it loaded. -/
def distTile (e_r : Vec F S1024x4096 .bf16) (e_s : Vec F S512x4096 .bf16) (n_r : Vec F S1024x1 .f32) (n_s : Vec F S1x512 .f32) :
    Vec F S1024x512 .f32 :=
  View.canon [⟨rTile, k0_pay1 (View.ld e_r rRows) (View.ld e_s rCols) (View.ld n_r rNormCol) (View.ld n_s rNormRow)⟩]

/-- The store covers the buffer. -/
theorem tile_covered (p : Vec F S1024x512 .f32) (y : S1024x512.Idx) :
    ∃ pc ∈ ([⟨rTile, p⟩] : List (View.Piece (Elt F) S1024x512 .f32)), y ∈ pc.1.set :=
  ⟨_, List.mem_singleton_self _, View.mem_set_unit_zero zero_offsets inb_S1024x512_S1024x512_0_0 y⟩

/-- Loads and store being whole-buffer, the tile is the body's arithmetic on the four blocks. -/
theorem distTile_eq (e_r : Vec F S1024x4096 .bf16) (e_s : Vec F S512x4096 .bf16) (n_r : Vec F S1024x1 .f32) (n_s : Vec F S1x512 .f32) :
    distTile e_r e_s n_r n_s = k0_pay1 e_r e_s n_r n_s := by
  unfold distTile
  rw [View.canon_unit_zero zero_offsets]
  simp only [View.ld_unit_zero (S := S1024x4096) zero_offsets, View.ld_unit_zero (S := S512x4096) zero_offsets,
    View.ld_unit_zero (S := S1024x1) zero_offsets, View.ld_unit_zero (S := S1x512) zero_offsets]

/-! ## The body's triple -/

set_option maxHeartbeats 1000000 in
/-- On whole staging buffers, the four inputs at contents it only reads and the result's at anything, the body runs to
    its return holding the inputs as they were and the result's buffer at the distance tile of the inputs. -/
theorem sound_kernel (c : Dev nD) (E : Set ℕ) (i : grid0.Coords)
    (a_r : Memref sig .tc .vmem S1024x4096 .bf16) (h_r : a_r.IsWhole) (a_s : Memref sig .tc .vmem S512x4096 .bf16) (h_s : a_s.IsWhole)
    (a_nr : Memref sig .tc .vmem S1024x1 .f32) (h_nr : a_nr.IsWhole) (a_ns : Memref sig .tc .vmem S1x512 .f32) (h_ns : a_ns.IsWhole)
    (a_o : Memref sig .tc .vmem S1024x512 .f32) (h_o : a_o.IsWhole)
    (e_r : Vec F S1024x4096 .bf16) (e_s : Vec F S512x4096 .bf16) (n_r : Vec F S1024x1 .f32) (n_s : Vec F S1x512 .f32) (K : PUnit → sProp 𝕄) :
    iprop(owns (c : Thread nD τ) a_r fullShare e_r ∗ owns (c : Thread nD τ) a_s fullShare e_s ∗ owns (c : Thread nD τ) a_nr fullShare n_r
        ∗ owns (c : Thread nD τ) a_ns fullShare n_s ∗ (∃ d, owns (c : Thread nD τ) a_o fullShare d)
        ∗ (iprop(owns (c : Thread nD τ) a_r fullShare e_r ∗ owns (c : Thread nD τ) a_s fullShare e_s ∗ owns (c : Thread nD τ) a_nr fullShare n_r
            ∗ owns (c : Thread nD τ) a_ns fullShare n_s ∗ owns (c : Thread nD τ) a_o fullShare (distTile e_r e_s n_r n_s)) -∗ K ⟨⟩))
      ⊢ wp frame (wpE (defs₀ (F := F)) Variants.none c none) E (cc0__rdm_kernel i a_r h_r a_s h_s a_nr h_nr a_ns h_ns a_o h_o) K := by
  simp only [cc0__rdm_kernel_eq_skeleton]; unfold cc0__rdm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tile_covered _)

/-! ## The proof data -/

/-- On core `c`: the arrays as the region finds them; after the body at point `t` each input's buffer still at its block
    and the result's at the distance tile of the four blocks; nothing kept between points beyond that; nothing owed.
    The rounded embeddings are read through two windows: the row-block window holds the array at the left half of the
    whole share, the column-block window at the right half. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => distTile (blockAt m c 0 t) (blockAt m c 1 t) (blockAt m c 2 t) (blockAt m c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) :
    (dats m 0 c).after 4 t = distTile (blockAt m c 0 t) (blockAt m c 1 t) (blockAt m c 2 t) (blockAt m c 3 t) := by
  dsimp only [dats]

theorem before_0 (c : Dev nD) (t : Fin cfg0.N) (d) : (dats m 0 c).before 0 t d = blockAt m c 0 t :=
  found_0 m (dats m 0 c) (A_eq m c 0) (after_0 m c) t d
theorem before_1 (c : Dev nD) (t : Fin cfg0.N) (d) : (dats m 0 c).before 1 t d = blockAt m c 1 t :=
  found_1 m (dats m 0 c) (A_eq m c 1) (after_1 m c) t d
theorem before_2 (c : Dev nD) (t : Fin cfg0.N) (d) : (dats m 0 c).before 2 t d = blockAt m c 2 t :=
  found_2 m (dats m 0 c) (A_eq m c 2) (after_2 m c) t d
theorem before_3 (c : Dev nD) (t : Fin cfg0.N) (d) : (dats m 0 c).before 3 t d = blockAt m c 3 t :=
  found_3 m (dats m 0 c) (A_eq m c 3) (after_3 m c) t d

/-! ## The shared array, dealt between its two windows -/

/-- The buffers behind the five windows' arrays are four. -/
theorem arr_image : Finset.univ.image (Pipeline.arrRef spec0) = ({main_v0, main_v4, main_v5, main_v6} : Finset (Ref sig .tc)) := by
  decide

/-- The four buffers conjoined one by one. -/
theorem bigSep_arrs {M : Type} [URA M] (Φ : Ref sig .tc → sProp M) :
    bigSep ({main_v0, main_v4, main_v5, main_v6} : Finset (Ref sig .tc)) Φ = iprop(Φ main_v0 ∗ Φ main_v4 ∗ Φ main_v5 ∗ Φ main_v6) :=
  BI.bigSep_eq_bigSepL_of_eq [main_v0, main_v4, main_v5, main_v6] (by decide) (by decide) Φ

/-- Handed the four buffers whole, the region holds the rounded embeddings once per window, at the two halves of the
    whole share and the same contents, and every other array whole. -/
theorem arrays_dealt (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [arr_image, bigSep_W0, bigSep_arrs]
  simp only [(arr_whole0 0).set_eq_univ, (arr_whole0 1).set_eq_univ, (arr_whole0 2).set_eq_univ,
    (arr_whole0 3).set_eq_univ, (arr_whole0 4).set_eq_univ]
  iintro ⟨H0, H4, H5, H6⟩
  ihave ⟨Hl, Hr⟩ := (pointsTo_share (PosShare.mem_left_op_right fullShare)).1 $$ H0
  isplitl [Hl]; · iexact Hl
  isplitl [Hr]; · iexact Hr
  isplitl [H4]; · iexact H4
  isplitl [H5]; · iexact H5
  iexact H6

/-! ## The body obligation, at a generic point -/

/-- What the body is called with at point `t`: the invariant, what the core owes, and each window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- At any point the inputs' buffers hold their blocks, so the body's triple applies; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (blockAt m c 0 t) (blockAt m c 1 t) (blockAt m c 2 t) (blockAt m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, each window's array ending at
    what the write-backs leave of it and every other unscoped buffer as the region found it. -/
theorem run_main : θ_run defs (onTc (τ := τ) (main (F := F))) (s₀ m ρ) (Pipeline.FramePost cfgs (dats m) 0 (V m)) :=
  Cert.SharedLaunch.θ_run_frame_shared cfgs (dats m) (0 : Fin 1) defs₀ Variants.none
    cellOf_inj winFacts₀0 block_pos0 arr_whole0 stage_whole0 m ρ main
    (hbody := fun c => (body_obligation m c).loose) (howed := fun _ _ => rfl) (V := V m) (hmain := hmain m Variants.none)
    (hsplit := arrays_dealt m) (hin := fun _ => .rfl) (hout := fun _ => .rfl)

/-- The argument array is no window's array, so it ends as the region found it, which is as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
    ((h c).2 main_arg0 (Pipeline.mem_restRefs_of main_arg0 rfl (by decide))).trans (V_main_arg0 m c)) (run_main m ρ)

end Cert.KernelIdeal.Hand

end
-- ==== Proof.LibColumnLayout.lean ====
/-
  A vector laid out as a column, and a column broadcast across many columns.

  Reading a reshape or a broadcast at an index: an `[a]` array cast to `[a, 1]` holds at (i, 0) its entry i, and an
  `[a, 1]` column broadcast to `[a, b]` holds at (p, c) the column's entry p, whatever the column c. These are the forms a
  sum kept as a column (one number per row) takes when it is added back to a matrix row by row.
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`: the row coordinate is kept
    (or is 0 when there is one row), the unit axis is read at 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.SqDistSpec.lean ====
/-
  The squared Euclidean distance matrix of the rows of a 4096 × 4096 array of extended reals.

  For rows r and s,  |x_r - x_s|² = |x_r|² + |x_s|² - 2 <x_r, x_s>,  and both programs compute the right-hand side as
  written and clamp it at zero: the squared norm of a row is a sum of squares started from the zero word, the inner
  product a plain sum of products over the 4096 columns, the factor two and the clamp's zero the float words the
  programs print. The words stand for the same extended real wherever they occur, so they are never evaluated here.
-/
import Idealize.ShloMosaic.PureOps.Ideal
import Idealize.ShloMosaic.Lib.ValueIdx

noncomputable section

namespace Cert.SqDist

open Idealize.ShloMosaic Idealize.ShloMosaic.ValueIdx

/-- A 4096 × 4096 array of extended reals. -/
abbrev Mat : Type := (⟨2, ![4096, 4096]⟩ : Shape).Idx → EReal

/-- The float word for zero, and for two. -/
abbrev zeroW : EReal := Ideal.ofBits .f32 0x00000000#32
abbrev twoW : EReal := Ideal.ofBits .f32 0x40000000#32

/-- The squared norm of row `r`: the sum of the squares of its entries, started from the zero word. -/
def rowNorm (x : Mat) (r : Fin 4096) : EReal := zeroW + ∑ k : Fin 4096, x (ix2 r k) * x (ix2 r k)

/-- The inner product of rows `r` and `s`. -/
def gram (x : Mat) (r s : Fin 4096) : EReal := ∑ k : Fin 4096, x (ix2 r k) * x (ix2 s k)

/-- The clamped squared distance between rows `r` and `s`. -/
def dist2 (x : Mat) (r s : Fin 4096) : EReal := max ((rowNorm x r + rowNorm x s) - twoW * gram x r s) zeroW

/-- The distance matrix, as one function of the array. -/
def sqDist (x : Mat) : Mat := fun j => dist2 x (j 0) (j 1)

theorem sqDist_ix2 (x : Mat) (r s : Fin 4096) : sqDist x (ix2 r s) = dist2 x r s := rfl

end Cert.SqDist

end
-- ==== Proof.KernelTile.lean ====
/-
  One tile of the distance matrix, entry by entry.

  The body multiplies a 1024 × 4096 block of rows by a 512 × 4096 block of rows, contracting the 4096 columns of both
  (row p of the first against row q of the second: no transpose is formed), into a zero accumulator, doubles the
  product, subtracts it from the sum of the two norm pieces (a column of 1024, a row of 512, each broadcast over the
  tile) and clamps at zero. Entry (p, q) of the tile therefore depends on row p of the first block, row q of the
  second, entry p of the column and entry q of the row.
-/
import proofs.«129429_j48249662603860_2_alg».proof.Proof.Gen.KernelIdeal.Skeleton
import proofs.«129429_j48249662603860_2_alg».proof.Proof.LibColumnLayout
import proofs.«129429_j48249662603860_2_alg».proof.Proof.SqDistSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Idealize.ShloMosaic Idealize.ShloMosaic.ValueIdx
open Cert.KernelIdeal Cert.KernelIdeal.Gen Cert.SqDist

/-! ## The product of the two row blocks -/

abbrev rowsDot := dot_S1024x4096_S512x4096_S1024x512_1_1_0_0_n_n

section Coordinates

variable (j : S1024x512.Idx) (q : rowsDot.contr.Idx)

/-- The left factor is taken in the output's row, -/
theorem left_row : (rowsDot.lhsIdx j q 0).val = (j 0).val := by
  unfold DotDims.lhsIdx
  rw [dif_neg (show ¬(0 : Fin S1024x4096.rank) ∈ rowsDot.lhsBatch by decide),
    dif_pos (show (0 : Fin S1024x4096.rank) ∈ rowsDot.lhsNonContracting by decide)]
  rfl
/-- at the contracted column; -/
theorem left_col : (rowsDot.lhsIdx j q 1).val = (q ⟨0, by decide⟩).val :=
  rowsDot.lhsIdx_val_of_single rfl j q
/-- the right factor in the row the output's COLUMN names, -/
theorem right_row : (rowsDot.rhsIdx j q 0).val = (j 1).val := by
  unfold DotDims.rhsIdx
  rw [dif_neg (show ¬(0 : Fin S512x4096.rank) ∈ rowsDot.rhsBatch by decide),
    dif_pos (show (0 : Fin S512x4096.rank) ∈ rowsDot.rhsNonContracting by decide)]
  rfl
/-- at the same contracted column. -/
theorem right_col : (rowsDot.rhsIdx j q 1).val = (q ⟨0, by decide⟩).val :=
  rowsDot.rhsIdx_val_of_single rfl j q

end Coordinates

/-- Into a zero accumulator, entry (p, q) of the product is the inner product of row p of the first block and row q of
    the second. -/
theorem rows_product (A : FVec Ideal S1024x4096 .bf16) (B : FVec Ideal S512x4096 .bf16) (p : Fin 1024) (q : Fin 512) :
    matmul rowsDot none A B (constant S1024x512 .f32 0x00000000#32) (ix2 p q)
      = ∑ k : Fin 4096, A (ix2 p k) * B (ix2 q k) := by
  simp only [matmul]
  rw [Ideal.matmul_constant_zero_apply, ← Equiv.sum_comp (ValueIdx.contrEquiv1 rowsDot 4096 rfl rfl).symm]
  refine Finset.sum_congr rfl fun k _ => ?_
  have hk := ValueIdx.contrEquiv1_symm_val rowsDot 4096 rfl rfl k
  have el : rowsDot.lhsIdx (ix2 p q) ((ValueIdx.contrEquiv1 rowsDot 4096 rfl rfl).symm k) = ix2 p k :=
    funext fun a => Fin.ext (by
      match a with
      | ⟨0, _⟩ => exact left_row _ _
      | ⟨1, _⟩ => exact (left_col _ _).trans hk)
  have er : rowsDot.rhsIdx (ix2 p q) ((ValueIdx.contrEquiv1 rowsDot 4096 rfl rfl).symm k) = ix2 q k :=
    funext fun a => Fin.ext (by
      match a with
      | ⟨0, _⟩ => exact right_row _ _
      | ⟨1, _⟩ => exact (right_col _ _).trans hk)
  rw [el, er]

/-! ## The tile -/

/-- Entry (p, q) of the tile the body stores: the two norm pieces at p and at q, less twice the inner product of row p
    of the first block and row q of the second, clamped at zero. -/
theorem tile_at (e_r : Vec Ideal S1024x4096 .bf16) (e_s : Vec Ideal S512x4096 .bf16) (n_r : Vec Ideal S1024x1 .f32) (n_s : Vec Ideal S1x512 .f32)
    (p : Fin 1024) (q : Fin 512) :
    k0_pay1 (F := Ideal) e_r e_s n_r n_s (ix2 p q)
      = max ((n_r (ix2 p (0 : Fin 1)) + n_s (ix2 (0 : Fin 1) q)) - twoW * ∑ k : Fin 4096, e_r (ix2 p k) * e_s (ix2 q k)) zeroW := by
  unfold k0_pay1
  simp only [shapeCast_self]
  rw [maximumf_apply, subf_apply, addf_apply, mulf_apply, broadcast_apply, broadcast_apply,
    Cert.ColumnLayout.broadcastTo_a1_ab_apply, broadcastTo_1b_ab_apply]
  rw [rows_product e_r e_s p q]
  rfl

end Cert.KernelIdeal.Tile

end
-- ==== Proof.KernelValue.lean ====
/-
  The kernel's result array is the distance matrix of its argument.

  When the region is entered the rounded embeddings are the argument itself (a change of float format is the identity on
  extended reals), and the norm column and the norm row both hold, at row r, the sum of the squares of row r started
  from the zero word. Grid point (i, j) writes back the tile whose entry (p, q) is the clamped squared distance between
  rows 1024 i + p and 512 j + q; the 32 tiles cover the 4096 × 4096 result, each entry exactly once.
-/
import proofs.«129429_j48249662603860_2_alg».proof.Proof.KernelIdealFrame
import proofs.«129429_j48249662603860_2_alg».proof.Proof.KernelTile
import proofs.«129429_j48249662603860_2_alg».proof.Proof.SqDistSpec
import proofs.«129429_j48249662603860_2_alg».proof.Proof.LibColumnLayout
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.KValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Hand Cert.SqDist

variable (m : (ℓ : Loc nD τ sig) → Buf (Elt Ideal) ℓ) (ρ : Dev nD → PrngReg)

/-- The argument array on core `c`, as launched. -/
abbrev arg (c : Dev nD) : Mat := m ((c : Thread nD τ).loc main_arg0)

/-! ## What the region finds in its three input arrays -/

/-- The rounded embeddings, as the host operations leave them. -/
theorem V_rounded (c : Dev nD) :
    V m c main_v0 = truncf (F := Ideal) (s := S4096x4096) (φ := .f32) .bf16 (arg m c) bitsLt_bf16_f32 := by
  dsimp only [V, hostOps0]
  after_results

/-- The squared norms as the host operations compute them: round to bf16 and back, square, sum each row from zero. -/
def normVec (x : FVec Ideal S4096x4096 .f32) : FVec Ideal S4096 .f32 :=
  Host.reduceAdd (F := Ideal)
    (mulf (extf (F := Ideal) .f32 (truncf (F := Ideal) .bf16 x bitsLt_bf16_f32) bitsLt_bf16_f32)
      (extf (F := Ideal) .f32 (truncf (F := Ideal) .bf16 x bitsLt_bf16_f32) bitsLt_bf16_f32))
    (constant (F := Ideal) S_ .f32 0x00000000#32) reducesTo_S4096x4096_S4096_d1 h_S_

/-- Rounding changes nothing on extended reals, so entry r is the sum of the squares of row r, from the zero word. -/
theorem normVec_at (x : Mat) (r : Fin 4096) : normVec x (ix1 r) = rowNorm x r := by
  unfold normVec rowNorm
  simp only [Host.reduceAdd, Ideal.hostReduceAdd_def]
  rw [Ideal.hostReduceAdd_single reducesTo_S4096x4096_S4096_d1 (by decide)]
  refine congrArg₂ (· + ·) rfl (Finset.sum_congr rfl fun k _ => ?_)
  have hk : (by decide : Shape.Reduces S4096x4096 [1] S4096).lift (ix1 r) k = ix2 r k :=
    funext fun a => Fin.ext (by match a with | ⟨0, _⟩ => rfl | ⟨1, _⟩ => rfl)
  rw [hk]
  rfl

/-- The norm column, as the host operations leave it: the norm vector laid out as a column. -/
theorem V_normCol (c : Dev nD) :
    V m c main_v4 = (fun i => shapeCast S4096x1 (normVec (arg m c)) shapeCasts_S4096_S4096x1 i) := by
  dsimp only [V, hostOps0]
  after_results
  rfl

/-- The norm row: the same vector laid out as a row. -/
theorem V_normRow (c : Dev nD) :
    V m c main_v5 = (fun i => shapeCast S1x4096 (normVec (arg m c)) shapeCasts_S4096_S1x4096 i) := by
  dsimp only [V, hostOps0]
  after_results
  rfl

/-! ## The same, entry by entry -/

/-- The rounded embeddings are the argument. -/
theorem rounded_at (c : Dev nD) (r k : Fin 4096) : V m c main_v0 (ix2 r k) = arg m c (ix2 r k) := by
  rw [V_rounded]
  rfl

/-- The norm column at row r is the squared norm of row r of the argument. -/
theorem normCol_at (c : Dev nD) (r : Fin 4096) : V m c main_v4 (ix2 r (0 : Fin 1)) = rowNorm (arg m c) r := by
  rw [V_normCol]
  show shapeCast S4096x1 (normVec (arg m c)) shapeCasts_S4096_S4096x1 (ix2 r (0 : Fin 1)) = _
  rw [Cert.ColumnLayout.shapeCast_a_a1_apply]
  exact normVec_at (arg m c) r

/-- The norm row at column s is the squared norm of row s. -/
theorem normRow_at (c : Dev nD) (s : Fin 4096) : V m c main_v5 (ix2 (0 : Fin 1) s) = rowNorm (arg m c) s := by
  rw [V_normRow]
  show shapeCast S1x4096 (normVec (arg m c)) shapeCasts_S4096_S1x4096 (ix2 (0 : Fin 1) s) = _
  rw [shapeCast_a_1a_apply]
  exact normVec_at (arg m c) s

/-! ## Which blocks a grid point touches -/

/-- Point t is the pair (i, j) = (t / 8, t % 8): the row-block windows sit at block i, the column-block windows at block
    j, the result's window at block (i, j). -/
theorem blocks_of_point : ∀ t : Fin cfg0.N,
    ((cfg0.win 0).index t 0 = t.val / 8 ∧ (cfg0.win 0).index t 1 = 0)
    ∧ ((cfg0.win 1).index t 0 = t.val % 8 ∧ (cfg0.win 1).index t 1 = 0)
    ∧ ((cfg0.win 2).index t 0 = t.val / 8 ∧ (cfg0.win 2).index t 1 = 0)
    ∧ ((cfg0.win 3).index t 0 = 0 ∧ (cfg0.win 3).index t 1 = t.val % 8)
    ∧ ((cfg0.win 4).index t 0 = t.val / 8 ∧ (cfg0.win 4).index t 1 = t.val % 8) :=
  (by decide +kernel : ∀ t : Fin grid0.N,
    (win0_0.index t 0 = t.val / 8 ∧ win0_0.index t 1 = 0)
    ∧ (win0_1.index t 0 = t.val % 8 ∧ win0_1.index t 1 = 0)
    ∧ (win0_2.index t 0 = t.val / 8 ∧ win0_2.index t 1 = 0)
    ∧ (win0_3.index t 0 = 0 ∧ win0_3.index t 1 = t.val % 8)
    ∧ (win0_4.index t 0 = t.val / 8 ∧ win0_4.index t 1 = t.val % 8))

/-! ## A tile entry from the rows it depends on -/

/-- If row p of the first block is row R of an array x, row q of the second block is its row S, and the two norm
    pieces hold the squared norms of rows R and S, the tile's entry (p, q) is the clamped squared distance between
    rows R and S of x. -/
theorem tile_is_dist (x : Mat) (R S : Fin 4096)
    (e_r : Vec Ideal S1024x4096 .bf16) (e_s : Vec Ideal S512x4096 .bf16) (n_r : Vec Ideal S1024x1 .f32) (n_s : Vec Ideal S1x512 .f32)
    (p : Fin 1024) (q : Fin 512)
    (h_r : ∀ k : Fin 4096, e_r (ix2 p k) = x (ix2 R k)) (h_s : ∀ k : Fin 4096, e_s (ix2 q k) = x (ix2 S k))
    (hn_r : n_r (ix2 p (0 : Fin 1)) = rowNorm x R) (hn_s : n_s (ix2 (0 : Fin 1) q) = rowNorm x S) :
    k0_pay1 (F := Ideal) e_r e_s n_r n_s (ix2 p q) = dist2 x R S := by
  rw [Cert.KernelIdeal.Tile.tile_at, hn_r, hn_s]
  unfold dist2 gram
  simp only [h_r, h_s]

/-! ## Where a block's entries sit in its array -/

section Positions

variable (c : Dev nD) (t : Fin cfg0.N)

/-- Row p of the row block at point t is row 1024 (t / 8) + p of the rounded embeddings. -/
theorem rows_at (p : Fin 1024) (k : Fin 4096) (R : Fin 4096) (hR : R.val = t.val / 8 * 1024 + p.val) :
    blockAt m c 0 t (ix2 p k) = V m c main_v0 (ix2 R k) := by
  obtain ⟨⟨h0, h1⟩, -⟩ := blocks_of_point t
  show V m c main_v0 (((cfg0.win 0).blk t).view.emb (ix2 p k)) = V m c main_v0 (ix2 R k)
  refine congrArg (V m c main_v0) (funext fun a => Fin.ext ?_)
  match a with
  | ⟨0, _⟩ => show (cfg0.win 0).index t 0 * 1024 + 1 * p.val = R.val; omega
  | ⟨1, _⟩ => show (cfg0.win 0).index t 1 * 4096 + 1 * k.val = k.val; omega

/-- Row q of the column block is row 512 (t % 8) + q of the same array. -/
theorem cols_at (q : Fin 512) (k : Fin 4096) (S : Fin 4096) (hS : S.val = t.val % 8 * 512 + q.val) :
    blockAt m c 1 t (ix2 q k) = V m c main_v0 (ix2 S k) := by
  obtain ⟨-, ⟨h0, h1⟩, -⟩ := blocks_of_point t
  show V m c main_v0 (((cfg0.win 1).blk t).view.emb (ix2 q k)) = V m c main_v0 (ix2 S k)
  refine congrArg (V m c main_v0) (funext fun a => Fin.ext ?_)
  match a with
  | ⟨0, _⟩ => show (cfg0.win 1).index t 0 * 512 + 1 * q.val = S.val; omega
  | ⟨1, _⟩ => show (cfg0.win 1).index t 1 * 4096 + 1 * k.val = k.val; omega

/-- Entry p of the norm column's piece is entry 1024 (t / 8) + p of the norm column. -/
theorem normCol_piece_at (p : Fin 1024) (R : Fin 4096) (hR : R.val = t.val / 8 * 1024 + p.val) :
    blockAt m c 2 t (ix2 p (0 : Fin 1)) = V m c main_v4 (ix2 R (0 : Fin 1)) := by
  obtain ⟨-, -, ⟨h0, h1⟩, -⟩ := blocks_of_point t
  show V m c main_v4 (((cfg0.win 2).blk t).view.emb (ix2 p (0 : Fin 1))) = V m c main_v4 (ix2 R (0 : Fin 1))
  refine congrArg (V m c main_v4) (funext fun a => Fin.ext ?_)
  match a with
  | ⟨0, _⟩ => show (cfg0.win 2).index t 0 * 1024 + 1 * p.val = R.val; omega
  | ⟨1, _⟩ => show (cfg0.win 2).index t 1 * 1 + 1 * 0 = 0; omega

/-- Entry q of the norm row's piece is entry 512 (t % 8) + q of the norm row. -/
theorem normRow_piece_at (q : Fin 512) (S : Fin 4096) (hS : S.val = t.val % 8 * 512 + q.val) :
    blockAt m c 3 t (ix2 (0 : Fin 1) q) = V m c main_v5 (ix2 (0 : Fin 1) S) := by
  obtain ⟨-, -, -, ⟨h0, h1⟩, -⟩ := blocks_of_point t
  show V m c main_v5 (((cfg0.win 3).blk t).view.emb (ix2 (0 : Fin 1) q)) = V m c main_v5 (ix2 (0 : Fin 1) S)
  refine congrArg (V m c main_v5) (funext fun a => Fin.ext ?_)
  match a with
  | ⟨0, _⟩ => show (cfg0.win 3).index t 0 * 1 + 1 * 0 = 0; omega
  | ⟨1, _⟩ => show (cfg0.win 3).index t 1 * 512 + 1 * q.val = S.val; omega

/-- Entry (p, q) of the result's tile sits at (1024 (t / 8) + p, 512 (t % 8) + q) of the result. -/
theorem tile_pos (p : Fin 1024) (q : Fin 512) (R S : Fin 4096)
    (hR : R.val = t.val / 8 * 1024 + p.val) (hS : S.val = t.val % 8 * 512 + q.val) :
    ((cfg0.win 4).blk t).view.emb (ix2 p q) = (ix2 R S : S4096x4096.Idx) := by
  obtain ⟨-, -, -, -, ⟨h0, h1⟩⟩ := blocks_of_point t
  refine funext fun a => Fin.ext ?_
  match a with
  | ⟨0, _⟩ => show (cfg0.win 4).index t 0 * 1024 + 1 * p.val = R.val; omega
  | ⟨1, _⟩ => show (cfg0.win 4).index t 1 * 512 + 1 * q.val = S.val; omega

end Positions

/-! ## What a point writes back -/

/-- Point t writes back its block of the distance matrix of the argument. -/
theorem flushed_eq (c : Dev nD) (t : Fin cfg0.N) :
    (dats m 0 c).flushed 4 t = ((cfg0.win 4).blk t).view.read (Elt Ideal) (sqDist (arg m c)) := by
  show (cfg0.win 4).cut (grid0.coords t) ((dats m 0 c).after 4 t) = _
  rw [after_4, distTile_eq]
  funext y
  obtain ⟨p, q, rfl⟩ : ∃ (p : Fin 1024) (q : Fin 512), y = ix2 p q := ⟨y 0, y 1, eq_ix2 y⟩
  have ht : t.val < 32 := (show cfg0.N = 32 from N_0) ▸ t.isLt
  have hp : p.val < 1024 := p.isLt
  have hq : q.val < 512 := q.isLt
  let R : Fin 4096 := ⟨t.val / 8 * 1024 + p.val, by omega⟩
  let S : Fin 4096 := ⟨t.val % 8 * 512 + q.val, by omega⟩
  show k0_pay1 (F := Ideal) (blockAt m c 0 t) (blockAt m c 1 t) (blockAt m c 2 t) (blockAt m c 3 t) (ix2 p q)
    = sqDist (arg m c) (((cfg0.win 4).blk t).view.emb (ix2 p q))
  rw [tile_pos t p q R S rfl rfl, sqDist_ix2]
  exact tile_is_dist (arg m c) R S _ _ _ _ p q
    (fun k => (rows_at m c t p k R rfl).trans (rounded_at m c R k))
    (fun k => (cols_at m c t q k S rfl).trans (rounded_at m c S k))
    ((normCol_piece_at m c t p R rfl).trans (normCol_at m c R))
    ((normRow_piece_at m c t q S rfl).trans (normRow_at m c S))

/-! ## The tiles cover the result -/

/-- An entry of the result is in point t's tile iff each coordinate is in the tile's range. -/
theorem mem_tile (t : Fin cfg0.N) (i : S4096x4096.Idx) :
    i ∈ ((cfg0.win 4).blk t).view.set ↔ ∀ a : Fin 2, win0_4.index t a * S1024x512.size a ≤ (i a).val
      ∧ (i a).val < win0_4.index t a * S1024x512.size a + S1024x512.size a := by
  show i ∈ ((View.whole main_v6).slice (win0_4.rect t)).set ↔ _
  rw [View.set_slice_whole, Rect.mem_set_unit]
  exact Iff.rfl

/-- Every block of the 4 × 8 arrangement is some point's. -/
theorem point_of_block : ∀ (b0 : Fin 4) (b1 : Fin 8), ∃ t : Fin cfg0.N, win0_4.index t = ![b0.val, b1.val] :=
  (by decide +kernel : ∀ (b0 : Fin 4) (b1 : Fin 8), ∃ t : Fin grid0.N, win0_4.index t = ![b0.val, b1.val])

/-- Entry (R, S) of the result is in the tile of block (R / 1024, S / 512), which is written back. -/
theorem covered (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ := point_of_block ⟨(i 0).val / 1024, by omega⟩ ⟨(i 1).val / 512, by omega⟩
  have q0 : win0_4.index t (0 : Fin 2) = (i 0).val / 1024 := congrFun ht 0
  have q1 : win0_4.index t (1 : Fin 2) = (i 1).val / 512 := congrFun ht 1
  refine ⟨t, flush0_4 t, ?_⟩
  rw [mem_tile]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 512 ≤ (i 1).val ∧ (i 1).val < win0_4.index t (1 : Fin 2) * 512 + 512
    omega

/-! ## The result array, and the run -/

/-- After all write-backs the result array is the distance matrix of the argument. -/
theorem final (c : Dev nD) : (dats m 0 c).arrAt 4 cfg0.N = sqDist (arg m c) :=
  (dats m 0 c).arrAt_eq_of_cover 4 (sqDist (arg m c)) (fun t _ => flushed_eq m c t) covered

/-- Every weakly fair execution of the program terminates with the result array at the distance matrix of the argument
    and the argument unchanged. -/
theorem run : θ_run defs (onTc (τ := τ) (main (F := Ideal))) ⟨m, fun _ => 0, ρ⟩ fun r => ∀ c : Dev nD,
      r.2.mem ((c.tc : Thread nD τ).loc main_v6) = sqDist (arg m c)
      ∧ r.2.mem ((c.tc : Thread nD τ).loc main_arg0) = m ((c.tc : Thread nD τ).loc main_arg0) :=
  (θ_run defs _ _).mono (fun r h c =>
    ⟨((h c).1 4).trans (final m c),
      ((h c).2 main_arg0 (Pipeline.mem_restRefs_of main_arg0 rfl (by decide))).trans (V_main_arg0 m c)⟩)
    (run_main m ρ)

end Cert.KernelIdeal.KValue

end
-- ==== Proof.ReferenceValue.lean ====
/-
  The reference's result, index by index.

  The reference squares the embeddings and sums each row (the squared norms), multiplies the embeddings by their own
  transpose (the Gram matrix), and returns max (n_r + n_s - 2 <e_r, e_s>, 0) at every pair of rows (r, s): entry (k, s)
  of the transpose is entry (s, k) of the array, so the Gram entry is the inner product of rows r and s, and the two
  broadcasts of the norm vector, down the columns and along the rows, put n_r and n_s at (r, s).
-/
import proofs.«129429_j48249662603860_2_alg».proof.Proof.Gen.ReferenceIdeal.Read
import proofs.«129429_j48249662603860_2_alg».proof.Proof.SqDistSpec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx
open Cert.ReferenceIdeal Cert.ReferenceIdeal.Read Cert.SqDist

/-! ## Where each stage reads its operand, at the pair of rows (r, s) -/

section Indices

variable (r s k : Fin 4096)

/-- Summing row r of the squares: column k of row r. -/
theorem norm_col_idx : idx_main_v1 (idx_main_v4 (idx_main_v6 (ix2 r s))) k = ix2 r k :=
  funext fun a => Fin.ext (by match a with | ⟨0, _⟩ => rfl | ⟨1, _⟩ => rfl)

/-- Summing row s of the squares. -/
theorem norm_row_idx : idx_main_v1 (idx_main_v5 (idx_main_v7 (ix2 r s))) k = ix2 s k :=
  funext fun a => Fin.ext (by match a with | ⟨0, _⟩ => rfl | ⟨1, _⟩ => rfl)

/-- The product's left factor: column k of row r. -/
theorem gram_left_idx : lidx_main_v3 (ix2 r s) k = ix2 r k :=
  funext fun a => Fin.ext (by match a with | ⟨0, _⟩ => rfl | ⟨1, _⟩ => rfl)

/-- Its right factor is entry (k, s) of the transpose: column k of row s. -/
theorem gram_right_idx : idx_main_v2 (ridx_main_v3 (ix2 r s) k) = ix2 s k :=
  funext fun a => Fin.ext (by match a with | ⟨0, _⟩ => rfl | ⟨1, _⟩ => rfl)

end Indices

/-! ## The reference is the distance matrix -/

/-- At the pair of rows (r, s) the reference's last stage is the clamped squared distance. -/
theorem result_at (x0 : Mat) (r s : Fin 4096) : val_main_v13 (F := Ideal) x0 (ix2 r s) = dist2 x0 r s := by
  rw [val_main_v13_apply, val_main_v11_apply, val_main_v8_apply, val_main_v10_apply,
    val_main_v6_apply, val_main_v4_apply, val_main_v7_apply, val_main_v5_apply,
    val_main_v1_apply, val_main_v1_apply, val_main_v3_apply,
    val_main_v9_apply, val_main_cst_0_apply, val_main_v12_apply, val_main_cst_1_apply, val_main_cst_apply]
  simp only [val_main_v0_apply, val_main_v2_apply, norm_col_idx, norm_row_idx, gram_left_idx, gram_right_idx]
  rfl

/-- The reference's result array is the distance matrix of its argument. -/
theorem result_eq (x0 : Mat) : val_main_v13 (F := Ideal) x0 = sqDist x0 :=
  funext fun j => by rw [eq_ix2 j]; exact result_at x0 (j 0) (j 1)

end Cert.ReferenceIdeal.RefValue

end
-- ==== Proof.lean ====
/-
  The pairwise squared-distance kernel against its reference.

  For a 4096 × 4096 array x of finite reals both programs return, at every pair of rows (r, s),
      max (|x_r|² + |x_s|² - 2 <x_r, x_s>, 0),
  the squared norms sums of squares from the zero word, the inner product a sum of products over the columns.

  The kernel first rounds x to bf16, computes the norms on the host from the rounded array, and then fills the result
  tile by tile, each 1024 × 512 tile from a block of 1024 rows and a block of 512 rows of the rounded array and the
  matching pieces of the norms. Read over the extended reals the rounding is the identity, a tile's matrix product into
  a zero accumulator is the inner products of its rows, and the 32 tiles cover the result; the reference forms the same
  inner products through a transpose. Nothing in the comparison needs the inputs to be finite: no sum is regrouped and
  no product is distributed.

  The two row blocks are windows on ONE array. Each holds it at half of the whole share, which suffices since the
  array is only read.
-/
import proofs.«129429_j48249662603860_2_alg».proof.Defs
import proofs.«129429_j48249662603860_2_alg».proof.Proof.Gen.Kernel
import proofs.«129429_j48249662603860_2_alg».proof.Proof.Gen.KernelIdeal
import proofs.«129429_j48249662603860_2_alg».proof.Proof.Gen.ReferenceIdeal
import proofs.«129429_j48249662603860_2_alg».proof.Proof.Gen.Pre_finite_inputs
import proofs.«129429_j48249662603860_2_alg».proof.Proof.Gen.ReferenceIdeal.Run
import proofs.«129429_j48249662603860_2_alg».proof.Proof.Gen.ReferenceIdeal.Read
import proofs.«129429_j48249662603860_2_alg».proof.Proof.KernelFrame
import proofs.«129429_j48249662603860_2_alg».proof.Proof.KernelIdealFrame
import proofs.«129429_j48249662603860_2_alg».proof.Proof.KernelValue
import proofs.«129429_j48249662603860_2_alg».proof.Proof.ReferenceValue
import Idealize.ShloMosaic.Adequacy
import Idealize.ShloMosaic.Init

noncomputable section

namespace Cert.Proof

open Idealize.ShloMosaic Idealize.ShloMosaic.TcCoe Idealize.SL.Sem

/-- The kernel's program runs to the end and leaves the embeddings as they were. -/
theorem frame_kernel : Cert.frame_Kernel := fun m ρ _ => Cert.Kernel.Hand.frame m ρ

/-- So does the same program read over the extended reals. -/
theorem frame_kernelIdeal : Cert.frame_KernelIdeal := fun m ρ _ => Cert.KernelIdeal.Hand.frame m ρ

/-- The reference is host operations only: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel as printed and the kernel read over the extended reals. -/
theorem preserves : Cert.preserves_Kernel_KernelIdeal := trivial

/-- From memories agreeing on the embeddings both programs end with the distance matrix of the embeddings. -/
theorem algebraic : Cert.algebraic_KernelIdeal_ReferenceIdeal := by
  intro m ρ m' ρ' _ hagree
  refine ⟨fun c => Cert.SqDist.sqDist (m ((c.tc : Thread Cert.KernelIdeal.nD Cert.KernelIdeal.τ).loc Cert.KernelIdeal.main_arg0)),
    Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v13_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
